-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S64x128 .f32) (main_arg7 : FVec F S64 .f32) (main_arg8 : FVec F S64x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S64x128 .f32) (main_arg7 : FVec F S64 .f32) (main_arg8 : FVec F S64x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1x128 : Shape := ⟨2, ![1, 128]⟩
abbrev S1700000x128 : Shape := ⟨2, ![1700000, 128]⟩
abbrev S100000x64 : Shape := ⟨2, ![100000, 64]⟩
abbrev S5000x64 : Shape := ⟨2, ![5000, 64]⟩
abbrev S128x64 : Shape := ⟨2, ![128, 64]⟩
abbrev S1x64 : Shape := ⟨2, ![1, 64]⟩
abbrev S1700000x64 : Shape := ⟨2, ![1700000, 64]⟩

abbrev nBuf : Space → Nat
  | .hbm => 97
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x128, .f32⟩
  | .hbm, ⟨46, _⟩ => ⟨S1700000x1, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S100000x128, .f32⟩
  | .hbm, ⟨63, _⟩ => ⟨S1700000x1, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x128, .f32⟩
  | .hbm, ⟨73, _⟩ => ⟨S1700000x128, .f32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S100000x64, .f32⟩
  | .hbm, ⟨80, _⟩ => ⟨S1700000x1, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000x64, .f32⟩
  | .hbm, ⟨90, _⟩ => ⟨S1700000x64, .f32⟩
  | .hbm, ⟨91, _⟩ => ⟨S1700000x64, .f32⟩
  | .hbm, ⟨92, _⟩ => ⟨S_, .f32⟩
  | .hbm, ⟨93, _⟩ => ⟨S100000x64, .f32⟩
  | .hbm, ⟨94, _⟩ => ⟨S1700000x1, .i32⟩
  | .hbm, ⟨95, _⟩ => ⟨S100000x64, .f32⟩
  | .hbm, ⟨96, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S64x128, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S64, .f32⟩
  | .local _ .vmem, ⟨22, _⟩ => ⟨S5000x64, .f32⟩
  | .local _ .vmem, ⟨23, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v69) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S1x128 : Shape := ⟨2, ![1, 128]⟩
abbrev S_ : Shape := ⟨0, ![]⟩
abbrev S1700000x1 : Shape := ⟨2, ![1700000, 1]⟩
abbrev S1700000x128 : Shape := ⟨2, ![1700000, 128]⟩
abbrev S128x64 : Shape := ⟨2, ![128, 64]⟩
abbrev S100000x64 : Shape := ⟨2, ![100000, 64]⟩
abbrev S1x64 : Shape := ⟨2, ![1, 64]⟩
abbrev S1700000x64 : Shape := ⟨2, ![1700000, 64]⟩

abbrev nBuf : Space → Nat
  | .hbm => 181
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S64x128, .f32⟩
  | 7 => ⟨S64, .f32⟩
  | 8 => ⟨S64x64, .f32⟩
  | 9 => ⟨S64, .f32⟩
  | 10 => ⟨S1x1600000, .i32⟩
  | 11 => ⟨S1600000, .i32⟩
  | 12 => ⟨S1x1600000, .i32⟩
  | 13 => ⟨S1600000, .i32⟩
  | 14 => ⟨S100000, .i32⟩
  | 15 => ⟨S1700000, .i32⟩
  | 16 => ⟨S1700000, .i32⟩
  | 17 => ⟨S128x128, .f32⟩
  | 18 => ⟨S100000x128, .f32⟩
  | 19 => ⟨S1x128, .f32⟩
  | 20 => ⟨S100000x128, .f32⟩
  | 21 => ⟨S100000x128, .f32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S1700000x1, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S_, .f32⟩
  | 67 => ⟨S100000x128, .f32⟩
  | 68 => ⟨S100000x128, .f32⟩
  | 69 => ⟨S100000, .i32⟩
  | 70 => ⟨S1700000, .i32⟩
  | 71 => ⟨S1700000, .i32⟩
  | 72 => ⟨S128x128, .f32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S1700000, .f32⟩
  | 105 => ⟨S1700000x1, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x128, .f32⟩
  | 115 => ⟨S1700000x128, .f32⟩
  | 116 => ⟨S1700000x128, .f32⟩
  | 117 => ⟨S_, .f32⟩
  | 118 => ⟨S100000x128, .f32⟩
  | 119 => ⟨S1700000x1, .i32⟩
  | 120 => ⟨S100000x128, .f32⟩
  | 121 => ⟨S_, .f32⟩
  | 122 => ⟨S100000x128, .f32⟩
  | 123 => ⟨S100000x128, .f32⟩
  | 124 => ⟨S100000, .i32⟩
  | 125 => ⟨S1700000, .i32⟩
  | 126 => ⟨S1700000, .i32⟩
  | 127 => ⟨S128x64, .f32⟩
  | _ => ⟨S100000x128, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S_, .f32⟩
  | 5 => ⟨S1700000, .f32⟩
  | 6 => ⟨S_, .f32⟩
  | 7 => ⟨S100000, .f32⟩
  | 8 => ⟨S1700000x1, .i32⟩
  | 9 => ⟨S100000, .f32⟩
  | 10 => ⟨S_, .f32⟩
  | 11 => ⟨S100000, .f32⟩
  | 12 => ⟨S100000, .f32⟩
  | 13 => ⟨S_, .i32⟩
  | 14 => ⟨S1700000, .i32⟩
  | 15 => ⟨S1700000, .i1⟩
  | 16 => ⟨S_, .i32⟩
  | 17 => ⟨S1700000, .i32⟩
  | 18 => ⟨S1700000, .i32⟩
  | 19 => ⟨S1700000, .i32⟩
  | 20 => ⟨S1700000x1, .i32⟩
  | 21 => ⟨S1700000, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S1700000, .f32⟩
  | 31 => ⟨S1700000, .f32⟩
  | 32 => ⟨S1700000x1, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000x64, .f32⟩
  | 42 => ⟨S1700000x64, .f32⟩
  | 43 => ⟨S1700000x64, .f32⟩
  | 44 => ⟨S_, .f32⟩
  | 45 => ⟨S100000x64, .f32⟩
  | 46 => ⟨S1700000x1, .i32⟩
  | 47 => ⟨S100000x64, .f32⟩
  | 48 => ⟨S64x64, .f32⟩
  | 49 => ⟨S100000x64, .f32⟩
  | 50 => ⟨S1x64, .f32⟩
  | 51 => ⟨S100000x64, .f32⟩
  | 52 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call0_cst : Ref sig .tc := ⟨.hbm, 66, rfl⟩
abbrev main_call0_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_c_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_15 : Ref sig .tc := ⟨.hbm, 106, rfl⟩
abbrev main_v77 : Ref sig .tc := ⟨.hbm, 107, rfl⟩
abbrev main_v78 : Ref sig .tc := ⟨.hbm, 108, rfl⟩
abbrev main_c_16 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_17 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_call1_cst : Ref sig .tc := ⟨.hbm, 121, rfl⟩
abbrev main_call1_v0 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_18 : Ref sig .tc := ⟨.hbm, 132, rfl⟩
abbrev main_v98 : Ref sig .tc := ⟨.hbm, 133, rfl⟩
abbrev main_cst_19 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_20 : Ref sig .tc := ⟨.hbm, 138, rfl⟩
abbrev main_v102 : Ref sig .tc := ⟨.hbm, 139, rfl⟩
abbrev main_v103 : Ref sig .tc := ⟨.hbm, 140, rfl⟩
abbrev main_c_21 : Ref sig .tc := ⟨.hbm, 141, rfl⟩
abbrev main_v104 : Ref sig .tc := ⟨.hbm, 142, rfl⟩
abbrev main_v105 : Ref sig .tc := ⟨.hbm, 143, rfl⟩
abbrev main_c_22 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_c_23 : Ref sig .tc := ⟨.hbm, 150, rfl⟩
abbrev main_v111 : Ref sig .tc := ⟨.hbm, 151, rfl⟩
abbrev main_v112 : Ref sig .tc := ⟨.hbm, 152, rfl⟩
abbrev main_c_24 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_c_25 : Ref sig .tc := ⟨.hbm, 161, rfl⟩
abbrev main_v120 : Ref sig .tc := ⟨.hbm, 162, rfl⟩
abbrev main_v121 : Ref sig .tc := ⟨.hbm, 163, rfl⟩
abbrev main_c_26 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_27 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  transposes_S64x64_S64x64_1_0 : S64x64.Transposes [1, 0] S64x64
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The run of the whole program with the RESULT kept in the post: from any memory with zero counters, every weakly fair
  execution of @main terminates without a fault, the result buffer ends at what the last boundary of the run's fold
  holds for it, and the ten argument arrays end as launched.

  @main is eight segments (a stretch of host operations, then a pallas_call, four times); the buffer contents at the
  segment boundaries are the fold W0, …, W8 of the frame module, and at the end every unscoped buffer holds W8's
  contents. The frame claim keeps only the arguments of that final fact; here the result buffer's entry is kept too.
-/
import proofs.«139529_j51908974739547_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the result buffer ends at the last boundary's
    contents and the arguments as launched. The final state is read against "every unscoped buffer holds W8". -/
theorem run_out : θ_run defs (onTc (τ := τ) (main (F := F))) ⟨m, fun _ => 0, ρ⟩ (fun r => ∀ c : Dev nD,
      r.2.mem ((c.tc : Thread nD τ).loc main_v70) = W8 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v70 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.KRun

end
-- ==== Proof.Layers.lean ====
/-
  The layers of a three-deep graph convolution with a final linear map, each as ONE function of whole arrays, in the
  host's own spelling.

  A linear layer sends a node-feature matrix h to h · Wᵀ + b: the contraction of h's feature axis with the feature
  axis of W (W is stored output-major, so it is transposed first), plus the bias spread over the rows. A rectifier
  clamps every entry below at the zero word. The aggregation sums, into each destination node c(e), the source row
  h[r(e)] scaled by the edge weight nrm(e), over all edges e (a row gather, a pointwise product, an accumulating
  scatter into zeros); a negative source index is first wrapped by the node count.
-/
import proofs.«139529_j51908974739547_1_alg».proof.Proof.Gen.ReferenceIdeal

noncomputable section

namespace Cert.ReferenceIdeal.Layers

open Cert.ReferenceIdeal Cert.ReferenceIdeal.Gen Idealize.ShloMosaic

variable {F : FTy → Type} [FloatOps F]

/-- h · Wᵀ + b for 128 input and 128 output features. -/
def lin128 (h : (⟨S100000x128, .f32⟩ : BufTy).Contents (Elt F)) (W : (⟨S128x128, .f32⟩ : BufTy).Contents (Elt F))
    (b : (⟨S128, .f32⟩ : BufTy).Contents (Elt F)) : (⟨S100000x128, .f32⟩ : BufTy).Contents (Elt F) :=
  addf (Host.dotGeneral dot_S100000x128_S128x128_S100000x128_1_0_0_1_n_n none h (transpose S128x128 [1, 0] W transposes_S128x128_S128x128_1_0))
    (broadcastInDim S100000x128 ![0, 1] bcast_S1x128_S100000x128_0_1 (broadcastInDim S1x128 ![1] bcast_S128_S1x128_1 b))

/-- h · Wᵀ + b for 128 input and 64 output features. -/
def lin128x64 (h : (⟨S100000x128, .f32⟩ : BufTy).Contents (Elt F)) (W : (⟨S64x128, .f32⟩ : BufTy).Contents (Elt F))
    (b : (⟨S64, .f32⟩ : BufTy).Contents (Elt F)) : (⟨S100000x64, .f32⟩ : BufTy).Contents (Elt F) :=
  addf (Host.dotGeneral dot_S100000x128_S128x64_S100000x64_1_0_0_1_n_n none h (transpose S128x64 [1, 0] W transposes_S64x128_S128x64_1_0))
    (broadcastInDim S100000x64 ![0, 1] bcast_S1x64_S100000x64_0_1 (broadcastInDim S1x64 ![1] bcast_S64_S1x64_1 b))

/-- h · Wᵀ + b for 64 input and 64 output features. -/
def lin64 (h : (⟨S100000x64, .f32⟩ : BufTy).Contents (Elt F)) (W : (⟨S64x64, .f32⟩ : BufTy).Contents (Elt F))
    (b : (⟨S64, .f32⟩ : BufTy).Contents (Elt F)) : (⟨S100000x64, .f32⟩ : BufTy).Contents (Elt F) :=
  addf (Host.dotGeneral dot_S100000x64_S64x64_S100000x64_1_0_0_1_n_n none h (transpose S64x64 [1, 0] W transposes_S64x64_S64x64_1_0))
    (broadcastInDim S100000x64 ![0, 1] bcast_S1x64_S100000x64_0_1 (broadcastInDim S1x64 ![1] bcast_S64_S1x64_1 b))

/-- The rectifier: every entry clamped below at the zero word. -/
def relu128 (h : (⟨S100000x128, .f32⟩ : BufTy).Contents (Elt F)) : (⟨S100000x128, .f32⟩ : BufTy).Contents (Elt F) :=
  maximumf h (broadcastInDim S100000x128 ![] bcast_S_S100000x128 (constant S_ .f32 0x00000000#32))

/-- A negative index counts from the end: it is shifted by the node count. -/
def wrap (i : (⟨S1700000, .i32⟩ : BufTy).Contents (Elt F)) : (⟨S1700000, .i32⟩ : BufTy).Contents (Elt F) :=
  select (cmpi .slt i (broadcastInDim S1700000 ![] bcast_S_S1700000 (constantI S_ 32 0#32)))
    (addi i (broadcastInDim S1700000 ![] bcast_S_S1700000 (constantI S_ 32 100000#32))) i

/-- The aggregation over the edges, 128 features: out[c(e)] += nrm(e) · h[r(e)], from zeros. -/
def agg128 (r c : (⟨S1700000, .i32⟩ : BufTy).Contents (Elt F)) (nrm : (⟨S1700000, .f32⟩ : BufTy).Contents (Elt F))
    (h : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 c)
    (mulf (broadcastInDim S1700000x128 ![0, 1] bcast_S1700000x1_S1700000x128_0_1 (broadcastInDim S1700000x1 ![0] bcast_S1700000_S1700000x1_0 nrm))
      (Host.gather gather_S100000x128_S1700000x1_S1700000x128_1_0_n_n_0_1_1128 h (broadcastInDim S1700000x1 ![0] bcast_S1700000_S1700000x1_0 (wrap r))))

/-- The aggregation over the edges, 64 features. -/
def agg64 (r c : (⟨S1700000, .i32⟩ : BufTy).Contents (Elt F)) (nrm : (⟨S1700000, .f32⟩ : BufTy).Contents (Elt F))
    (h : (⟨S100000x64, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 c)
    (mulf (broadcastInDim S1700000x64 ![0, 1] bcast_S1700000x1_S1700000x64_0_1 (broadcastInDim S1700000x1 ![0] bcast_S1700000_S1700000x1_0 nrm))
      (Host.gather gather_S100000x64_S1700000x1_S1700000x64_1_0_n_n_0_1_164 h (broadcastInDim S1700000x1 ![0] bcast_S1700000_S1700000x1_0 (wrap r))))

end Cert.ReferenceIdeal.Layers

end
-- ==== Proof.RefValue.lean ====
/-
  The host program, layer by layer. Each of its seven stages that matter — three linear layers with their
  aggregations, two rectifiers in between, a last linear map — is the corresponding layer function applied to the stage
  before it; the source indices r, the destination indices c and the edge weights nrm are the same three arrays in
  every layer (the host recomputes them per layer from the same edge list, by the same operations). All of this is by
  unfolding: no arithmetic.
-/
import proofs.«139529_j51908974739547_1_alg».proof.Proof.Gen.ReferenceIdeal.Read
import proofs.«139529_j51908974739547_1_alg».proof.Proof.Layers

noncomputable section

namespace Cert.ReferenceIdeal.RefValue

open Cert.ReferenceIdeal Cert.ReferenceIdeal.Gen Cert.ReferenceIdeal.Read Cert.ReferenceIdeal.Layers Idealize.ShloMosaic

variable {F : FTy → Type} [FloatOps F]

variable (x0 : (⟨S100000x128, .f32⟩ : BufTy).Contents (Elt F)) (x1 : (⟨S2x1600000, .i32⟩ : BufTy).Contents (Elt F))
  (x2 : (⟨S128x128, .f32⟩ : BufTy).Contents (Elt F)) (x3 : (⟨S128, .f32⟩ : BufTy).Contents (Elt F))
  (x4 : (⟨S128x128, .f32⟩ : BufTy).Contents (Elt F)) (x5 : (⟨S128, .f32⟩ : BufTy).Contents (Elt F))
  (x6 : (⟨S64x128, .f32⟩ : BufTy).Contents (Elt F)) (x7 : (⟨S64, .f32⟩ : BufTy).Contents (Elt F))
  (x8 : (⟨S64x64, .f32⟩ : BufTy).Contents (Elt F)) (x9 : (⟨S64, .f32⟩ : BufTy).Contents (Elt F))

/-- The source index of every edge (the edge list's first row, then one self loop per node). -/
abbrev src : (⟨S1700000, .i32⟩ : BufTy).Contents (Elt F) := val_main_v5 (F := F) x1
/-- The destination index of every edge. -/
abbrev dst : (⟨S1700000, .i32⟩ : BufTy).Contents (Elt F) := val_main_v6 (F := F) x1
/-- The weight of every edge: deg^(-1/2) at its source times deg^(-1/2) at its destination. -/
abbrev nrm : (⟨S1700000, .f32⟩ : BufTy).Contents (Elt F) := val_main_v32 (F := F) x1

theorem stage1 : val_main_v11 (F := F) x0 x2 x3 = lin128 x0 x2 x3 := rfl

theorem stage2 : val_main_v45 (F := F) x0 x1 x2 x3 = agg128 (src x1) (dst x1) (nrm x1) (val_main_v11 (F := F) x0 x2 x3) := rfl

theorem stage3 : val_main_v54 (F := F) x0 x1 x2 x3 x4 x5 = lin128 (relu128 (val_main_v45 (F := F) x0 x1 x2 x3)) x4 x5 := rfl

theorem stage4 : val_main_v88 (F := F) x0 x1 x2 x3 x4 x5
    = agg128 (src x1) (dst x1) (nrm x1) (val_main_v54 (F := F) x0 x1 x2 x3 x4 x5) := rfl

theorem stage5 : val_main_v97 (F := F) x0 x1 x2 x3 x4 x5 x6 x7
    = lin128x64 (relu128 (val_main_v88 (F := F) x0 x1 x2 x3 x4 x5)) x6 x7 := rfl

theorem stage6 : val_main_v131 (F := F) x0 x1 x2 x3 x4 x5 x6 x7
    = agg64 (src x1) (dst x1) (nrm x1) (val_main_v97 (F := F) x0 x1 x2 x3 x4 x5 x6 x7) := rfl

theorem stage7 : val_main_v136 (F := F) x0 x1 x2 x3 x4 x5 x6 x7 x8 x9
    = lin64 (val_main_v131 (F := F) x0 x1 x2 x3 x4 x5 x6 x7) x8 x9 := rfl

/-- The whole network as the host computes it: the seven layers composed. -/
def net : (⟨S100000x64, .f32⟩ : BufTy).Contents (Elt F) :=
  lin64 (agg64 (src x1) (dst x1) (nrm x1)
    (lin128x64 (relu128 (agg128 (src x1) (dst x1) (nrm x1)
      (lin128 (relu128 (agg128 (src x1) (dst x1) (nrm x1) (lin128 x0 x2 x3))) x4 x5))) x6 x7)) x8 x9

/-- The host program's result is the network. -/
theorem result_eq : val_main_v136 (F := F) x0 x1 x2 x3 x4 x5 x6 x7 x8 x9 = net x0 x1 x2 x3 x4 x5 x6 x7 x8 x9 := by
  rw [stage7, stage6, stage5, stage4, stage3, stage2, stage1]; rfl

end Cert.ReferenceIdeal.RefValue

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LibDenseLayer.lean ====
/-
  A dense layer on the extended reals, and its reading at an entry on the matrix unit.

  The specification (namespace Cert.Bridge.Spec): for a matrix A with rows p and features k, weights W and a bias b,
  the unclamped layer's entry (p, q) is the sum over k of A[p, k] · W[k, q], plus b[q]; a hidden layer clamps that entry
  below at the zero word's value. Row p of either depends on row p of A alone, so re-indexing the rows of the input
  re-indexes the rows of the output (by unfolding): a block of rows can be computed on its own. Any row count, any
  widths.

  The reading (namespace Cert.Bridge.LayerAt): a matrix unit's product of an M × K by a K × N operand into a zero
  accumulator, plus a [1, N] bias row spread over the M rows, read at entry (p, q), is the unclamped layer over the
  operands' entries; with a clamp against a splat of the zero word it is the hidden layer; and followed by the change
  of float format that usually comes next (the identity on the extended reals) it is, as a whole matrix, the hidden
  layer of the operands' matrices, which is the form that lets consecutive layers be chained by congruence. Nothing
  here assumes finiteness: only the reading of a sum at its index.
-/
import proofs.«139529_j51908974739547_1_alg».proof.Proof.LibMatmul
import Idealize.ShloMosaic.PureOps.Ideal
import Idealize.ShloMosaic.Lib.ValueIdx
import Idealize.ShloMosaic.Lib.ValueLayout

noncomputable section

open scoped BigOperators

namespace Cert.Bridge.Spec

open Idealize.ShloMosaic

variable {M M' K N : Nat}

/-- The clamp's floor: the extended real the zero word of f32 denotes. -/
abbrev floor0 : EReal := Ideal.ofBits .f32 0x00000000#32

/-- The unclamped layer: entry (p, q) is the contraction of row p of A with column q of W, plus b[q]. -/
def head (A : Fin M → Fin K → EReal) (W : Fin K → Fin N → EReal) (b : Fin N → EReal) (p : Fin M) (q : Fin N) : EReal :=
  (∑ k : Fin K, A p k * W k q) + b q

/-- A hidden layer: the unclamped layer's entry, clamped below at the floor. -/
def layer (A : Fin M → Fin K → EReal) (W : Fin K → Fin N → EReal) (b : Fin N → EReal) (p : Fin M) (q : Fin N) : EReal :=
  max (head A W b p q) floor0

/-- Row p of a layer's output is a function of row p of its input alone: re-indexing the rows commutes with the layer. -/
theorem head_rows (σ : Fin M' → Fin M) (A : Fin M → Fin K → EReal) (W : Fin K → Fin N → EReal) (b : Fin N → EReal) :
    head (fun r => A (σ r)) W b = fun r => head A W b (σ r) := rfl

/-- The same for a hidden layer: the clamp acts entry by entry. -/
theorem layer_rows (σ : Fin M' → Fin M) (A : Fin M → Fin K → EReal) (W : Fin K → Fin N → EReal) (b : Fin N → EReal) :
    layer (fun r => A (σ r)) W b = fun r => layer A W b (σ r) := rfl

end Cert.Bridge.Spec

namespace Cert.Bridge.LayerAt

open Idealize.ShloMosaic Idealize.ShloMosaic.ValueIdx Cert.Bridge

variable {M K N : Nat}

/-- A matrix as a function of its two coordinates. (On the extended reals every element type is the same
    set, so the matrix is taken as a plain function of its index.) -/
abbrev mat (A : (⟨2, ![M, K]⟩ : Shape).Idx → EReal) : Fin M → Fin K → EReal := fun p k => A (ix2 p k)

/-- A one-row matrix as a function of its column. -/
abbrev row (b : (⟨2, ![1, N]⟩ : Shape).Idx → EReal) : Fin N → EReal := fun q => b (ix2 (0 : Fin 1) q)

/-- The unclamped layer on the matrix unit: product into zero plus the spread bias row. -/
theorem head_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    addf (FloatOps.matmul (DotDims.plain M K N) prec A W (constant ⟨2, ![M, N]⟩ .f32 0x00000000#32))
        (broadcastTo ⟨2, ![M, N]⟩ b hb) (ix2 p q)
      = Spec.head (mat A) (mat W) (row b) p q := by
  rw [addf_apply, LibMatmul.matmul_zero_apply, broadcastTo_1b_ab_apply]
  rfl

/-- A hidden layer on the matrix unit: the unclamped layer, clamped against a splat of the zero word. The splat's
    scalar and the specification's floor are the same extended real, the one the zero word denotes. -/
theorem layer_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32)) (ix2 p q)
      = Spec.layer (mat A) (mat W) (row b) p q := by
  rw [maximumf_apply, head_apply, broadcast_apply]
  rfl

/-- The same, for the whole matrix at once and after the change of format that follows a hidden layer (the identity on
    the extended reals): the next layer's input matrix is the specification's layer of this layer's operands. -/
theorem layer_mat {φ₁ φ₂ ψ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (hψ : ψ.bits < FTy.f32.bits) :
    mat (truncf ψ (maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32))) hψ)
      = Spec.layer (mat A) (mat W) (row b) :=
  funext fun p => funext fun q => layer_apply prec A W b hb p q

end Cert.Bridge.LayerAt

end
-- ==== Proof.DenseAt.lean ====
/-
  The dense layer read at an entry, on the extended reals.

  Both spellings of a layer — the matrix unit's (a block of rows against the transposed weights into a zero accumulator,
  plus the bias row spread over the rows, the rows optionally rectified first) and the host's (the whole matrix
  against the transposed weights, plus the bias broadcast in two steps) — have at entry (row, q) the value
  Σ_k a[row, k] · W[q, k] + b[q], where a is the input, rectified or not. A change of float format is the identity here.
-/
import proofs.«139529_j51908974739547_1_alg».proof.Proof.Gen.KernelIdeal.Skeleton
import proofs.«139529_j51908974739547_1_alg».proof.Proof.Layers
import proofs.«139529_j51908974739547_1_alg».proof.Proof.LibDenseLayer
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Bridge.DenseAt

open Idealize.ShloMosaic Idealize.ShloMosaic.ValueIdx

/-- The rectifier's floor: the extended real the zero word of f32 denotes. -/
abbrev floor0 : EReal := Ideal.ofBits .f32 0x00000000#32

section Layout

variable {α : Type}

/-- A vector laid out as the one row of a matrix: the row's entry q is the vector's entry q. -/
theorem rowOf_apply {n : ℕ} (b : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h b (ix2 u q) = b (ix1 q) := by
  refine broadcastInDim_apply _ h b (ix2 u q) (ix1 q) fun a => ?_
  match a with
  | ⟨0, _⟩ =>
    show q.val = if n = 1 then 0 else q.val
    split
    · have := q.isLt; omega
    · rfl

/-- One row repeated over m rows: entry (p, q) is the row's entry q. -/
theorem spread_apply {m n : ℕ} (v : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h v (ix2 p q) = v (ix2 (0 : Fin 1) q) := by
  refine broadcastInDim_apply _ h v (ix2 p q) (ix2 (0 : Fin 1) q) fun a => ?_
  match a with
  | ⟨0, _⟩ => exact (if_pos rfl).symm
  | ⟨1, _⟩ =>
    show q.val = if n = 1 then 0 else q.val
    split
    · have := q.isLt; omega
    · rfl

end Layout

section MatrixUnit

open Cert.KernelIdeal Cert.KernelIdeal.Gen

/-- First layer's block: no rectifier. -/
theorem pay0_apply (x0 : Vec Ideal S5000x128 .f32) (x1 : Vec Ideal S128x128 .f32) (x2 : Vec Ideal S128 .f32)
    (y : Fin 5000) (q : Fin 128) :
    k0_pay1 (F := Ideal) x0 x1 x2 (ix2 y q) = (∑ k : Fin 128, x0 (ix2 y k) * x1 (ix2 q k)) + x2 (ix1 q) := by
  unfold k0_pay1
  -- the product into zero plus the spread bias row, at (y, q), is the unclamped layer of the operands' entries
  refine (LayerAt.head_apply (M := 5000) (K := 128) (N := 128) none
    (truncf .bf16 x0 bitsLt_bf16_f32)
    (transpose S128x128 [1, 0] (truncf .bf16 x1 bitsLt_bf16_f32) transposes_S128x128_p1_0_S128x128)
    (shapeCast S1x128 x2 shapeCasts_S128_S1x128) broadcasts_S1x128_S5000x128 y q).trans ?_
  unfold Spec.head
  congr 1
  · -- the transposed weights at (k, q) are the weights at (q, k)
    refine Finset.sum_congr rfl fun k _ => ?_
    exact congrArg (fun t : EReal => x0 (ix2 y k) * t)
      (transpose_ix2_apply (truncf (F := Ideal) .bf16 x1 bitsLt_bf16_f32) transposes_S128x128_p1_0_S128x128 k q)
  · -- the bias as a one-row matrix, at (0, q), is the bias at q
    exact shapeCast_a_1a_apply x2 shapeCasts_S128_S1x128 0 q

/-- Second layer's block: the input rectified first. -/
theorem pay1_apply (x0 : Vec Ideal S5000x128 .f32) (x1 : Vec Ideal S128x128 .f32) (x2 : Vec Ideal S128 .f32)
    (y : Fin 5000) (q : Fin 128) :
    k1_pay1 (F := Ideal) x0 x1 x2 (ix2 y q) = (∑ k : Fin 128, max (x0 (ix2 y k)) floor0 * x1 (ix2 q k)) + x2 (ix1 q) := by
  unfold k1_pay1
  refine (LayerAt.head_apply (M := 5000) (K := 128) (N := 128) none
    (truncf .bf16 (maximumf (shapeCast S5000x128 x0 shapeCasts_S5000x128_S5000x128)
      (broadcast S5000x128 (Scalar.ofBits (F := Ideal) .f32 0x00000000#32))) bitsLt_bf16_f32)
    (transpose S128x128 [1, 0] (truncf .bf16 x1 bitsLt_bf16_f32) transposes_S128x128_p1_0_S128x128)
    (shapeCast S1x128 x2 shapeCasts_S128_S1x128) broadcasts_S1x128_S5000x128 y q).trans ?_
  unfold Spec.head
  congr 1
  · -- a cast to the same shape is the identity; the transposed weights at (k, q) are the weights at (q, k)
    refine Finset.sum_congr rfl fun k _ => ?_
    exact congrArg₂ (fun s t : EReal => s * t)
      (congrArg (fun t : EReal => max t floor0) (congrFun (shapeCast_self x0 shapeCasts_S5000x128_S5000x128) (ix2 y k)))
      (transpose_ix2_apply (truncf (F := Ideal) .bf16 x1 bitsLt_bf16_f32) transposes_S128x128_p1_0_S128x128 k q)
  · exact shapeCast_a_1a_apply x2 shapeCasts_S128_S1x128 0 q

/-- Third layer's block: rectified input, 128 features in, 64 out. -/
theorem pay2_apply (x0 : Vec Ideal S5000x128 .f32) (x1 : Vec Ideal S64x128 .f32) (x2 : Vec Ideal S64 .f32)
    (y : Fin 5000) (q : Fin 64) :
    k2_pay1 (F := Ideal) x0 x1 x2 (ix2 y q) = (∑ k : Fin 128, max (x0 (ix2 y k)) floor0 * x1 (ix2 q k)) + x2 (ix1 q) := by
  unfold k2_pay1
  refine (LayerAt.head_apply (M := 5000) (K := 128) (N := 64) none
    (truncf .bf16 (maximumf (shapeCast S5000x128 x0 shapeCasts_S5000x128_S5000x128)
      (broadcast S5000x128 (Scalar.ofBits (F := Ideal) .f32 0x00000000#32))) bitsLt_bf16_f32)
    (transpose S128x64 [1, 0] (truncf .bf16 x1 bitsLt_bf16_f32) transposes_S64x128_p1_0_S128x64)
    (shapeCast S1x64 x2 shapeCasts_S64_S1x64) broadcasts_S1x64_S5000x64 y q).trans ?_
  unfold Spec.head
  congr 1
  · refine Finset.sum_congr rfl fun k _ => ?_
    exact congrArg₂ (fun s t : EReal => s * t)
      (congrArg (fun t : EReal => max t floor0) (congrFun (shapeCast_self x0 shapeCasts_S5000x128_S5000x128) (ix2 y k)))
      (transpose_ix2_apply (truncf (F := Ideal) .bf16 x1 bitsLt_bf16_f32) transposes_S64x128_p1_0_S128x64 k q)
  · exact shapeCast_a_1a_apply x2 shapeCasts_S64_S1x64 0 q

/-- Last linear map's block: no rectifier, 64 features in and out. -/
theorem pay3_apply (x0 : Vec Ideal S5000x64 .f32) (x1 : Vec Ideal S64x64 .f32) (x2 : Vec Ideal S64 .f32)
    (y : Fin 5000) (q : Fin 64) :
    k3_pay1 (F := Ideal) x0 x1 x2 (ix2 y q) = (∑ k : Fin 64, x0 (ix2 y k) * x1 (ix2 q k)) + x2 (ix1 q) := by
  unfold k3_pay1
  refine (LayerAt.head_apply (M := 5000) (K := 64) (N := 64) none
    (truncf .bf16 (shapeCast S5000x64 x0 shapeCasts_S5000x64_S5000x64) bitsLt_bf16_f32)
    (transpose S64x64 [1, 0] (truncf .bf16 x1 bitsLt_bf16_f32) transposes_S64x64_p1_0_S64x64)
    (shapeCast S1x64 x2 shapeCasts_S64_S1x64) broadcasts_S1x64_S5000x64 y q).trans ?_
  unfold Spec.head
  congr 1
  · refine Finset.sum_congr rfl fun k _ => ?_
    exact congrArg₂ (fun s t : EReal => s * t)
      (congrFun (shapeCast_self x0 shapeCasts_S5000x64_S5000x64) (ix2 y k))
      (transpose_ix2_apply (truncf (F := Ideal) .bf16 x1 bitsLt_bf16_f32) transposes_S64x64_p1_0_S64x64 k q)
  · exact shapeCast_a_1a_apply x2 shapeCasts_S64_S1x64 0 q

end MatrixUnit

section Host

open Cert.ReferenceIdeal Cert.ReferenceIdeal.Gen Cert.ReferenceIdeal.Layers

theorem lin128_apply (h : (⟨S100000x128, .f32⟩ : BufTy).Contents (Elt Ideal)) (W : (⟨S128x128, .f32⟩ : BufTy).Contents (Elt Ideal))
    (b : (⟨S128, .f32⟩ : BufTy).Contents (Elt Ideal)) (p : Fin 100000) (q : Fin 128) :
    lin128 (F := Ideal) h W b (ix2 p q) = (∑ k : Fin 128, h (ix2 p k) * W (ix2 q k)) + b (ix1 q) := by
  unfold lin128
  rw [addf_apply]
  congr 1
  · -- the host's product at (p, q) is the sum over k; the transposed weights at (k, q) are the weights at (q, k)
    refine (LibMatmul.dotGeneral_apply (M := 100000) (K := 128) (N := 128) none .single h
      (transpose S128x128 [1, 0] W transposes_S128x128_S128x128_1_0) p q).trans ?_
    refine Finset.sum_congr rfl fun k _ => ?_
    exact congrArg (fun t : EReal => h (ix2 p k) * t) (transpose_ix2_apply W transposes_S128x128_S128x128_1_0 k q)
  · -- the bias, made a row and then repeated over the rows, at (p, q) is the bias at q
    exact (spread_apply _ bcast_S1x128_S100000x128_0_1 p q).trans (rowOf_apply b bcast_S128_S1x128_1 0 q)

theorem lin128x64_apply (h : (⟨S100000x128, .f32⟩ : BufTy).Contents (Elt Ideal)) (W : (⟨S64x128, .f32⟩ : BufTy).Contents (Elt Ideal))
    (b : (⟨S64, .f32⟩ : BufTy).Contents (Elt Ideal)) (p : Fin 100000) (q : Fin 64) :
    lin128x64 (F := Ideal) h W b (ix2 p q) = (∑ k : Fin 128, h (ix2 p k) * W (ix2 q k)) + b (ix1 q) := by
  unfold lin128x64
  rw [addf_apply]
  congr 1
  · refine (LibMatmul.dotGeneral_apply (M := 100000) (K := 128) (N := 64) none .single h
      (transpose S128x64 [1, 0] W transposes_S64x128_S128x64_1_0) p q).trans ?_
    refine Finset.sum_congr rfl fun k _ => ?_
    exact congrArg (fun t : EReal => h (ix2 p k) * t) (transpose_ix2_apply W transposes_S64x128_S128x64_1_0 k q)
  · exact (spread_apply _ bcast_S1x64_S100000x64_0_1 p q).trans (rowOf_apply b bcast_S64_S1x64_1 0 q)

theorem lin64_apply (h : (⟨S100000x64, .f32⟩ : BufTy).Contents (Elt Ideal)) (W : (⟨S64x64, .f32⟩ : BufTy).Contents (Elt Ideal))
    (b : (⟨S64, .f32⟩ : BufTy).Contents (Elt Ideal)) (p : Fin 100000) (q : Fin 64) :
    lin64 (F := Ideal) h W b (ix2 p q) = (∑ k : Fin 64, h (ix2 p k) * W (ix2 q k)) + b (ix1 q) := by
  unfold lin64
  rw [addf_apply]
  congr 1
  · refine (LibMatmul.dotGeneral_apply (M := 100000) (K := 64) (N := 64) none .single h
      (transpose S64x64 [1, 0] W transposes_S64x64_S64x64_1_0) p q).trans ?_
    refine Finset.sum_congr rfl fun k _ => ?_
    exact congrArg (fun t : EReal => h (ix2 p k) * t) (transpose_ix2_apply W transposes_S64x64_S64x64_1_0 k q)
  · exact (spread_apply _ bcast_S1x64_S100000x64_0_1 p q).trans (rowOf_apply b bcast_S64_S1x64_1 0 q)

theorem relu128_apply (h : (⟨S100000x128, .f32⟩ : BufTy).Contents (Elt Ideal)) (p : Fin 100000) (k : Fin 128) :
    relu128 (F := Ideal) h (ix2 p k) = max (h (ix2 p k)) floor0 := by
  unfold relu128
  rw [maximumf_apply]
  -- the scalar zero word spread over the whole array reads, at every index, as the zero word's value
  refine congrArg (max (h (ix2 p k))) ?_
  exact broadcastInDim_apply _ bcast_S_S100000x128 (constant (F := Ideal) S_ .f32 0x00000000#32) (ix2 p k) ix0
    (fun a => a.elim0)

end Host

end Cert.Bridge.DenseAt

end
-- ==== Proof.Region0.lean ====
/-
  The first pallas_call as one function of whole arrays: its 20 blocks of 5000 rows tile the 100000 rows, each block the linear layer of its own rows, so the output array is the linear layer h · Wᵀ + b of the input array.
-/
import proofs.«139529_j51908974739547_1_alg».proof.Proof.Gen.KernelIdeal.Frame
import proofs.«139529_j51908974739547_1_alg».proof.Proof.Layers
import proofs.«139529_j51908974739547_1_alg».proof.Proof.DenseAt
import Idealize.ShloMosaic.Lib.Pipeline.Value
import Idealize.ShloMosaic.Lib.ValueIdx

set_option maxRecDepth 16384

noncomputable section

open scoped BigOperators

namespace Cert.KernelIdeal.Regions

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The zero offset of a rank-2 rectangle. -/
theorem zeroOffset2_0 : (![0, 0] : Fin 2 → Nat) = fun _ => 0 := funext fun a => by fin_cases a <;> rfl

/-- The zero offset of a rank-1 rectangle. -/
theorem zeroOffset1_0 : (![0] : Fin 1 → Nat) = fun _ => 0 := funext fun a => by fin_cases a <;> rfl

/-- The block indices at grid point t, decided over the 20 points: the input and the output sit at row block t,
    column block 0; the weights and the bias are the one block (0, 0) / (0) at every point. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The input's block at point t is rows 5000·t … 5000·t + 4999 of the input array. -/
theorem inputBlock0 (c : Dev nD) (t : Fin cfg0.N) (p : Fin 5000) (k : Fin 128) (r : Fin 100000)
    (hr : r.val = 5000 * t.val + p.val) :
    (iblk0 (F := Ideal) V c 0 t : Vec Ideal S5000x128 .f32) (ix2 p k)
      = (V c main_arg0 : S100000x128.Idx → Elt Ideal .f32) (ix2 r k) := by
  obtain ⟨e0, e1, -⟩ := blockIndex0 t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weights' block at every point is the whole weight matrix. -/
theorem weightBlock0 (c : Dev nD) (t : Fin cfg0.N) (q : Fin 128) (k : Fin 128) :
    (iblk0 (F := Ideal) V c 1 t : Vec Ideal S128x128 .f32) (ix2 q k)
      = (V c main_arg2 : S128x128.Idx → Elt Ideal .f32) (ix2 q k) := by
  obtain ⟨-, -, e0, e1, -⟩ := blockIndex0 t
  unfold iblk0
  rw [View.read_apply]
  show V c main_arg2 _ = V c main_arg2 _
  congr 1
  funext a
  apply Fin.ext
  match a with
  | ⟨0, _⟩ => show win0_1.index t (0 : Fin 2) * 128 + 1 * q.val = q.val; rw [e0]; omega
  | ⟨1, _⟩ => show win0_1.index t (1 : Fin 2) * 128 + 1 * k.val = k.val; rw [e1]; omega

/-- The bias' block at every point is the whole bias vector. -/
theorem biasBlock0 (c : Dev nD) (t : Fin cfg0.N) (q : Fin 128) :
    (iblk0 (F := Ideal) V c 2 t : Vec Ideal S128 .f32) (ix1 q)
      = (V c main_arg3 : S128.Idx → Elt Ideal .f32) (ix1 q) := by
  obtain ⟨-, -, -, -, e0, -⟩ := blockIndex0 t
  unfold iblk0
  rw [View.read_apply]
  show V c main_arg3 _ = V c main_arg3 _
  congr 1
  funext a
  apply Fin.ext
  match a with
  | ⟨0, _⟩ => show win0_2.index t (0 : Fin 1) * 128 + 1 * q.val = q.val; rw [e0]; omega

/-- What point t writes back is block t of the linear layer of the whole arrays: at entry (y, q) of the block both
    are Σ_k h[5000·t + y, k] · W[q, k] + b[q]. -/
theorem writtenBlock0 (c : Dev nD) (t : Fin cfg0.N) :
    (dat0 (F := Ideal) V c).flushed 3 t
      = ((cfg0.win 3).blk t).view.read (Elt Ideal)
          (Cert.ReferenceIdeal.Layers.lin128 (F := Ideal) (V c main_arg0) (V c main_arg2) (V c main_arg3)) := by
  show (cfg0.win 3).cut (grid0.coords t) ((dat0 V c).after 3 t) = _
  rw [after0_3]
  unfold out0_3
  rw [View.canon_unit_zero zeroOffset2_0]
  simp only [View.ld_unit_zero (S := S5000x128) zeroOffset2_0, View.ld_unit_zero (S := S128x128) zeroOffset2_0,
    View.ld_unit_zero (S := S128) zeroOffset1_0]
  obtain ⟨-, -, -, -, -, e0, e1⟩ := blockIndex0 t
  have hN : cfg0.N = 20 := N_0
  have ht : t.val < 20 := hN ▸ t.isLt
  funext j
  obtain ⟨p, q, rfl⟩ : ∃ (p : Fin 5000) (q : Fin 128), j = ix2 p q := ⟨j 0, j 1, eq_ix2 j⟩
  obtain ⟨r, hr⟩ : ∃ r : Fin 100000, r.val = 5000 * t.val + p.val := ⟨⟨5000 * t.val + p.val, by omega⟩, rfl⟩
  have hemb : ((cfg0.win 3).blk t).view.emb (ix2 p q) = (ix2 r q : S100000x128.Idx) := by
    funext a
    apply Fin.ext
    match a with
    | ⟨0, _⟩ => show win0_3.index t (0 : Fin 2) * 5000 + 1 * p.val = r.val; rw [e0, hr]; omega
    | ⟨1, _⟩ => show win0_3.index t (1 : Fin 2) * 128 + 1 * q.val = q.val; rw [e1]; omega
  show k0_pay1 (F := Ideal) (iblk0 V c 0 t) (iblk0 V c 1 t) (iblk0 V c 2 t) (ix2 p q)
    = Cert.ReferenceIdeal.Layers.lin128 (F := Ideal) (V c main_arg0) (V c main_arg2) (V c main_arg3)
        (((cfg0.win 3).blk t).view.emb (ix2 p q))
  rw [hemb]
  refine ((Cert.Bridge.DenseAt.pay0_apply (iblk0 V c 0 t) (iblk0 V c 1 t) (iblk0 V c 2 t) p q).trans ?_).trans
    (Cert.Bridge.DenseAt.lin128_apply (V c main_arg0) (V c main_arg2) (V c main_arg3) r q).symm
  rw [biasBlock0 V c t q]
  congr 1
  exact Finset.sum_congr rfl fun k _ => by
    rw [inputBlock0 V c t p k r hr, weightBlock0 V c t q k]

/-- An index of the output array is in point t's block iff each coordinate is in the block's range on its axis. -/
theorem mem_block0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v28).slice (win0_3.rect t)).set ↔ _
  rw [View.set_slice_whole, Rect.mem_set_unit]
  exact Iff.rfl

/-- The 20 blocks of 5000 rows tile the 100000 rows: row r is in the block of point r / 5000, which writes back. -/
theorem covered0 (i : S100000x128.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, -, e0, e1⟩ := blockIndex0 t
  refine ⟨t, flush0_3 t, ?_⟩
  rw [mem_block0]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

theorem region0_arr (c : Dev nD) :
    (dat0 (F := Ideal) V c).arrAt 3 cfg0.N
      = Cert.ReferenceIdeal.Layers.lin128 (F := Ideal) (V c main_arg0) (V c main_arg2) (V c main_arg3) :=
  (dat0 (F := Ideal) V c).arrAt_eq_of_cover 3 _ (fun t _ => writtenBlock0 V c t) covered0

end Cert.KernelIdeal.Regions

end
-- ==== Proof.Region1.lean ====
/-
  The second pallas_call as one function of whole arrays: the rows are rectified inside each block, so the output array is the linear layer of the rectified input array.
-/
import proofs.«139529_j51908974739547_1_alg».proof.Proof.Gen.KernelIdeal.Frame
import proofs.«139529_j51908974739547_1_alg».proof.Proof.Layers
import proofs.«139529_j51908974739547_1_alg».proof.Proof.DenseAt
import Idealize.ShloMosaic.Lib.Pipeline.Value
import Idealize.ShloMosaic.Lib.ValueIdx

set_option maxRecDepth 16384

noncomputable section

open scoped BigOperators

namespace Cert.KernelIdeal.Regions

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The zero offset of a rank-2 rectangle. -/
theorem zeroOffset2_1 : (![0, 0] : Fin 2 → Nat) = fun _ => 0 := funext fun a => by fin_cases a <;> rfl

/-- The zero offset of a rank-1 rectangle. -/
theorem zeroOffset1_1 : (![0] : Fin 1 → Nat) = fun _ => 0 := funext fun a => by fin_cases a <;> rfl

/-- The block indices at grid point t, decided over the 20 points: the input and the output sit at row block t,
    column block 0; the weights and the bias are the one block (0, 0) / (0) at every point. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The input's block at point t is rows 5000·t … 5000·t + 4999 of the input array. -/
theorem inputBlock1 (c : Dev nD) (t : Fin cfg1.N) (p : Fin 5000) (k : Fin 128) (r : Fin 100000)
    (hr : r.val = 5000 * t.val + p.val) :
    (iblk1 (F := Ideal) V c 0 t : Vec Ideal S5000x128 .f32) (ix2 p k)
      = (V c main_v41 : S100000x128.Idx → Elt Ideal .f32) (ix2 r k) := by
  obtain ⟨e0, e1, -⟩ := blockIndex1 t
  unfold iblk1
  rw [View.read_apply]
  show V c main_v41 _ = V c main_v41 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The weights' block at every point is the whole weight matrix. -/
theorem weightBlock1 (c : Dev nD) (t : Fin cfg1.N) (q : Fin 128) (k : Fin 128) :
    (iblk1 (F := Ideal) V c 1 t : Vec Ideal S128x128 .f32) (ix2 q k)
      = (V c main_arg4 : S128x128.Idx → Elt Ideal .f32) (ix2 q k) := by
  obtain ⟨-, -, e0, e1, -⟩ := blockIndex1 t
  unfold iblk1
  rw [View.read_apply]
  show V c main_arg4 _ = V c main_arg4 _
  congr 1
  funext a
  apply Fin.ext
  match a with
  | ⟨0, _⟩ => show win1_1.index t (0 : Fin 2) * 128 + 1 * q.val = q.val; rw [e0]; omega
  | ⟨1, _⟩ => show win1_1.index t (1 : Fin 2) * 128 + 1 * k.val = k.val; rw [e1]; omega

/-- The bias' block at every point is the whole bias vector. -/
theorem biasBlock1 (c : Dev nD) (t : Fin cfg1.N) (q : Fin 128) :
    (iblk1 (F := Ideal) V c 2 t : Vec Ideal S128 .f32) (ix1 q)
      = (V c main_arg5 : S128.Idx → Elt Ideal .f32) (ix1 q) := by
  obtain ⟨-, -, -, -, e0, -⟩ := blockIndex1 t
  unfold iblk1
  rw [View.read_apply]
  show V c main_arg5 _ = V c main_arg5 _
  congr 1
  funext a
  apply Fin.ext
  match a with
  | ⟨0, _⟩ => show win1_2.index t (0 : Fin 1) * 128 + 1 * q.val = q.val; rw [e0]; omega

/-- What point t writes back is block t of the linear layer of the rectified whole input: at entry (y, q) of the block both
    are Σ_k max(h[5000·t + y, k], 0) · W[q, k] + b[q]. -/
theorem writtenBlock1 (c : Dev nD) (t : Fin cfg1.N) :
    (dat1 (F := Ideal) V c).flushed 3 t
      = ((cfg1.win 3).blk t).view.read (Elt Ideal)
          (Cert.ReferenceIdeal.Layers.lin128 (F := Ideal) (Cert.ReferenceIdeal.Layers.relu128 (F := Ideal) (V c main_v41)) (V c main_arg4) (V c main_arg5)) := by
  show (cfg1.win 3).cut (grid1.coords t) ((dat1 V c).after 3 t) = _
  rw [after1_3]
  unfold out1_3
  rw [View.canon_unit_zero zeroOffset2_1]
  simp only [View.ld_unit_zero (S := S5000x128) zeroOffset2_1, View.ld_unit_zero (S := S128x128) zeroOffset2_1,
    View.ld_unit_zero (S := S128) zeroOffset1_1]
  obtain ⟨-, -, -, -, -, e0, e1⟩ := blockIndex1 t
  have hN : cfg1.N = 20 := N_1
  have ht : t.val < 20 := hN ▸ t.isLt
  funext j
  obtain ⟨p, q, rfl⟩ : ∃ (p : Fin 5000) (q : Fin 128), j = ix2 p q := ⟨j 0, j 1, eq_ix2 j⟩
  obtain ⟨r, hr⟩ : ∃ r : Fin 100000, r.val = 5000 * t.val + p.val := ⟨⟨5000 * t.val + p.val, by omega⟩, rfl⟩
  have hemb : ((cfg1.win 3).blk t).view.emb (ix2 p q) = (ix2 r q : S100000x128.Idx) := by
    funext a
    apply Fin.ext
    match a with
    | ⟨0, _⟩ => show win1_3.index t (0 : Fin 2) * 5000 + 1 * p.val = r.val; rw [e0, hr]; omega
    | ⟨1, _⟩ => show win1_3.index t (1 : Fin 2) * 128 + 1 * q.val = q.val; rw [e1]; omega
  show k1_pay1 (F := Ideal) (iblk1 V c 0 t) (iblk1 V c 1 t) (iblk1 V c 2 t) (ix2 p q)
    = Cert.ReferenceIdeal.Layers.lin128 (F := Ideal) (Cert.ReferenceIdeal.Layers.relu128 (F := Ideal) (V c main_v41)) (V c main_arg4) (V c main_arg5)
        (((cfg1.win 3).blk t).view.emb (ix2 p q))
  rw [hemb]
  refine ((Cert.Bridge.DenseAt.pay1_apply (iblk1 V c 0 t) (iblk1 V c 1 t) (iblk1 V c 2 t) p q).trans ?_).trans
    (Cert.Bridge.DenseAt.lin128_apply (Cert.ReferenceIdeal.Layers.relu128 (F := Ideal) (V c main_v41)) (V c main_arg4) (V c main_arg5) r q).symm
  exact congrArg₂ (· + ·) (Finset.sum_congr rfl fun k _ => by
    rw [inputBlock1 V c t p k r hr, weightBlock1 V c t q k, Cert.Bridge.DenseAt.relu128_apply (V c main_v41) r k]) (biasBlock1 V c t q)

/-- An index of the output array is in point t's block iff each coordinate is in the block's range on its axis. -/
theorem mem_block1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v42).slice (win1_3.rect t)).set ↔ _
  rw [View.set_slice_whole, Rect.mem_set_unit]
  exact Iff.rfl

/-- The 20 blocks of 5000 rows tile the 100000 rows: row r is in the block of point r / 5000, which writes back. -/
theorem covered1 (i : S100000x128.Idx) :
    ∃ t : Fin cfg1.N, (cfg1.win 3).flush t = true ∧ i ∈ ((cfg1.win 3).blk t).view.set := by
  have hN : cfg1.N = 20 := N_1
  have hi0 : (i 0).val < 100000 := (i 0).isLt
  have hi1 : (i 1).val < 128 := (i 1).isLt
  obtain ⟨t, ht⟩ : ∃ t : Fin cfg1.N, t.val = (i 0).val / 5000 := ⟨⟨(i 0).val / 5000, by rw [hN]; omega⟩, rfl⟩
  obtain ⟨-, -, -, -, -, e0, e1⟩ := blockIndex1 t
  refine ⟨t, flush1_3 t, ?_⟩
  rw [mem_block1]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 128 ≤ (i 1).val ∧ (i 1).val < win1_3.index t (1 : Fin 2) * 128 + 128
    rw [e1]; omega

theorem region1_arr (c : Dev nD) :
    (dat1 (F := Ideal) V c).arrAt 3 cfg1.N
      = Cert.ReferenceIdeal.Layers.lin128 (F := Ideal) (Cert.ReferenceIdeal.Layers.relu128 (F := Ideal) (V c main_v41)) (V c main_arg4) (V c main_arg5) :=
  (dat1 (F := Ideal) V c).arrAt_eq_of_cover 3 _ (fun t _ => writtenBlock1 V c t) covered1

end Cert.KernelIdeal.Regions

end
-- ==== Proof.Region2.lean ====
/-
  The third pallas_call as one function of whole arrays: rectified rows, 128 features in and 64 out.
-/
import proofs.«139529_j51908974739547_1_alg».proof.Proof.Gen.KernelIdeal.Frame
import proofs.«139529_j51908974739547_1_alg».proof.Proof.Layers
import proofs.«139529_j51908974739547_1_alg».proof.Proof.DenseAt
import Idealize.ShloMosaic.Lib.Pipeline.Value
import Idealize.ShloMosaic.Lib.ValueIdx

set_option maxRecDepth 16384

noncomputable section

open scoped BigOperators

namespace Cert.KernelIdeal.Regions

open Cert.KernelIdeal Cert.KernelIdeal.Gen Idealize.ShloMosaic Idealize.ShloMosaic.TcCoe Idealize.ShloMosaic.ValueIdx
open Idealize.ShloMosaic.Pipeline (Dat Cfg Window)

/-- Two zero offsets, and one, as constant maps. -/
private theorem zeros2 : (![0, 0] : Fin 2 → Nat) = fun _ => 0 := funext fun a => by fin_cases a <;> rfl
private theorem zeros1 : (![0] : Fin 1 → Nat) = fun _ => 0 := funext fun a => by fin_cases a <;> rfl

/-- The printed index maps over the twenty grid points: the input's and the output's row blocks sit at block index
    (t, 0); the weights and the bias are one block each, at block index zero. -/
private theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

private theorem points2 (t : Fin cfg2.N) : t.val < 20 := lt_of_lt_of_eq t.isLt N_2

/-- One entry of a block of rows of the layer: when the block's row y is the array's row r and the weights and bias
    are the whole arrays, the matrix unit's entry (y, q), which rectifies its rows first, is the host's entry (r, q)
    of the linear map applied to the rectified array. -/
private theorem entry2 (x0 : Vec Ideal S5000x128 .f32) (x1 : Vec Ideal S64x128 .f32) (x2 : Vec Ideal S64 .f32)
    (h : (⟨S100000x128, .f32⟩ : BufTy).Contents (Elt Ideal)) (y : Fin 5000) (r : Fin 100000) (q : Fin 64)
    (hrow : ∀ k : Fin 128, x0 (ix2 y k) = h (ix2 r k)) :
    k2_pay1 (F := Ideal) x0 x1 x2 (ix2 y q)
      = Cert.ReferenceIdeal.Layers.lin128x64 (F := Ideal) (Cert.ReferenceIdeal.Layers.relu128 (F := Ideal) h) x1 x2 (ix2 r q) := by
  rw [Cert.Bridge.DenseAt.pay2_apply, Cert.Bridge.DenseAt.lin128x64_apply]
  refine congrArg (fun s : EReal => s + x2 (ix1 q)) (Finset.sum_congr rfl fun k _ => ?_)
  rw [Cert.Bridge.DenseAt.relu128_apply, hrow k]

variable (V : (c : Dev nD) → (b : Ref sig .tc) → Buf (Elt Ideal) ((c : Thread nD τ).loc b))

/-- Row y of the input's block at point t is row 5000·t + y of the input array. -/
private theorem rows2 (c : Dev nD) (t : Fin cfg2.N) (y : Fin 5000) (k : Fin 128) (r : Fin 100000)
    (hr : r.val = 5000 * t.val + y.val) :
    iblk2 (F := Ideal) V c 0 t (ix2 y k) = V c main_v55 (ix2 r k) := by
  obtain ⟨e0, e1, -⟩ := blockIndex2 t
  show V c main_v55 (((cfg2.win 0).blk t).view.emb (ix2 y k)) = V c main_v55 (ix2 r k)
  refine congrArg (V c main_v55) (funext fun a => Fin.ext ?_)
  match a with
  | ⟨0, _⟩ => show win2_0.index t (0 : Fin 2) * 5000 + 1 * y.val = r.val; omega
  | ⟨1, _⟩ => show win2_0.index t (1 : Fin 2) * 128 + 1 * k.val = k.val; omega

/-- The weights' block at every point is the whole array. -/
private theorem weights2 (c : Dev nD) (t : Fin cfg2.N) : iblk2 (F := Ideal) V c 1 t = V c main_arg6 := by
  obtain ⟨-, -, e0, e1, -⟩ := blockIndex2 t
  funext j
  show V c main_arg6 (((cfg2.win 1).blk t).view.emb j) = V c main_arg6 j
  refine congrArg (V c main_arg6) (funext fun a => Fin.ext ?_)
  match a with
  | ⟨0, _⟩ => show win2_1.index t (0 : Fin 2) * 64 + 1 * (j 0).val = (j 0).val; omega
  | ⟨1, _⟩ => show win2_1.index t (1 : Fin 2) * 128 + 1 * (j 1).val = (j 1).val; omega

/-- The bias's block at every point is the whole array. -/
private theorem bias2 (c : Dev nD) (t : Fin cfg2.N) : iblk2 (F := Ideal) V c 2 t = V c main_arg7 := by
  obtain ⟨-, -, -, -, e0, -⟩ := blockIndex2 t
  funext j
  show V c main_arg7 (((cfg2.win 2).blk t).view.emb j) = V c main_arg7 j
  refine congrArg (V c main_arg7) (funext fun a => Fin.ext ?_)
  match a with
  | ⟨0, _⟩ => show win2_2.index t (0 : Fin 1) * 64 + 1 * (j 0).val = (j 0).val; omega

/-- What point t writes back is block t of the layer of the arrays as the region finds them. -/
private theorem flushed2 (c : Dev nD) (t : Fin cfg2.N) :
    (dat2 (F := Ideal) V c).flushed 3 t = ((cfg2.win 3).blk t).view.read (Elt Ideal)
      (Cert.ReferenceIdeal.Layers.lin128x64 (F := Ideal) (Cert.ReferenceIdeal.Layers.relu128 (F := Ideal) (V c main_v55))
        (V c main_arg6) (V c main_arg7)) := by
  show (cfg2.win 3).cut (grid2.coords t) ((dat2 V c).after 3 t) = _
  rw [after2_3]
  unfold out2_3
  rw [View.canon_unit_zero zeros2]
  simp only [View.ld_unit_zero (S := S5000x128) zeros2, View.ld_unit_zero (S := S64x128) zeros2, View.ld_unit_zero (S := S64) zeros1]
  rw [weights2, bias2]
  obtain ⟨-, -, -, -, -, e0, e1⟩ := blockIndex2 t
  have ht := points2 t
  funext j
  obtain ⟨y, q, rfl⟩ : ∃ (y : Fin 5000) (q : Fin 64), j = ix2 y q := ⟨j 0, j 1, eq_ix2 j⟩
  have hout : ((cfg2.win 3).blk t).view.emb (ix2 y q) = ix2 (⟨5000 * t.val + y.val, by omega⟩ : Fin 100000) q := by
    funext a; apply Fin.ext
    match a with
    | ⟨0, _⟩ => show win2_3.index t (0 : Fin 2) * 5000 + 1 * y.val = 5000 * t.val + y.val; omega
    | ⟨1, _⟩ => show win2_3.index t (1 : Fin 2) * 64 + 1 * q.val = q.val; omega
  show k2_pay1 (F := Ideal) (iblk2 V c 0 t) (V c main_arg6) (V c main_arg7) (ix2 y q)
    = Cert.ReferenceIdeal.Layers.lin128x64 (F := Ideal) (Cert.ReferenceIdeal.Layers.relu128 (F := Ideal) (V c main_v55))
        (V c main_arg6) (V c main_arg7) (((cfg2.win 3).blk t).view.emb (ix2 y q))
  rw [hout]
  exact entry2 _ _ _ _ y _ q fun k => rows2 V c t y k _ rfl

/-- An index of the array is in point t's block iff each coordinate is in the block's range on its axis. -/
private theorem memBlock2 (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v56).slice (win2_3.rect t)).set ↔ _
  rw [View.set_slice_whole, Rect.mem_set_unit]
  exact Iff.rfl

/-- The twenty blocks of 5000 rows tile the 100000 rows: row r is in the block of point r / 5000. -/
private theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hlt : (i 0).val / 5000 < cfg2.N := by rw [show cfg2.N = 20 from N_2]; omega
  obtain ⟨-, -, -, -, -, e0, e1⟩ := blockIndex2 ⟨(i 0).val / 5000, hlt⟩
  refine ⟨⟨(i 0).val / 5000, hlt⟩, flush2_3 _, ?_⟩
  rw [memBlock2]
  intro a
  match a with
  | ⟨0, _⟩ =>
    show win2_3.index ⟨(i 0).val / 5000, hlt⟩ (0 : Fin 2) * 5000 ≤ (i 0).val
      ∧ (i 0).val < win2_3.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win2_3.index ⟨(i 0).val / 5000, hlt⟩ (1 : Fin 2) * 64 ≤ (i 1).val
      ∧ (i 1).val < win2_3.index ⟨(i 0).val / 5000, hlt⟩ (1 : Fin 2) * 64 + 64
    omega

/-- The third pallas_call's output array is the linear map, 128 features to 64, of the rectified input array, the
    arrays as the region finds them: every point writes back its block of that map, and the blocks cover the array. -/
theorem region2_arr (c : Dev nD) :
    (dat2 (F := Ideal) V c).arrAt 3 cfg2.N
      = Cert.ReferenceIdeal.Layers.lin128x64 (F := Ideal) (Cert.ReferenceIdeal.Layers.relu128 (F := Ideal) (V c main_v55)) (V c main_arg6) (V c main_arg7) :=
  (dat2 (F := Ideal) V c).arrAt_eq_of_cover 3 _ (fun t _ => flushed2 V c t) cover2

end Cert.KernelIdeal.Regions

end
-- ==== Proof.Region3.lean ====
/-
  The last pallas_call as one function of whole arrays: the final linear map, 64 features in and out, no rectifier.
-/
import proofs.«139529_j51908974739547_1_alg».proof.Proof.Gen.KernelIdeal.Frame
import proofs.«139529_j51908974739547_1_alg».proof.Proof.Layers
import proofs.«139529_j51908974739547_1_alg».proof.Proof.DenseAt
import Idealize.ShloMosaic.Lib.Pipeline.Value
import Idealize.ShloMosaic.Lib.ValueIdx

set_option maxRecDepth 16384

noncomputable section

open scoped BigOperators

namespace Cert.KernelIdeal.Regions

open Cert.KernelIdeal Cert.KernelIdeal.Gen Idealize.ShloMosaic Idealize.ShloMosaic.TcCoe Idealize.ShloMosaic.ValueIdx
open Idealize.ShloMosaic.Pipeline (Dat Cfg Window)

/-- Two zero offsets, and one, as constant maps. -/
private theorem zeros2 : (![0, 0] : Fin 2 → Nat) = fun _ => 0 := funext fun a => by fin_cases a <;> rfl
private theorem zeros1 : (![0] : Fin 1 → Nat) = fun _ => 0 := funext fun a => by fin_cases a <;> rfl

/-- The printed index maps over the twenty grid points: the input's and the output's row blocks sit at block index
    (t, 0); the weights and the bias are one block each, at block index zero. -/
private theorem blockIndex3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

private theorem points3 (t : Fin cfg3.N) : t.val < 20 := lt_of_lt_of_eq t.isLt N_3

/-- One entry of a block of rows of the layer: when the block's row y is the array's row r and the weights and bias
    are the whole arrays, the matrix unit's entry (y, q) is the host's entry (r, q). -/
private theorem entry3 (x0 : Vec Ideal S5000x64 .f32) (x1 : Vec Ideal S64x64 .f32) (x2 : Vec Ideal S64 .f32)
    (h : (⟨S100000x64, .f32⟩ : BufTy).Contents (Elt Ideal)) (y : Fin 5000) (r : Fin 100000) (q : Fin 64)
    (hrow : ∀ k : Fin 64, x0 (ix2 y k) = h (ix2 r k)) :
    k3_pay1 (F := Ideal) x0 x1 x2 (ix2 y q) = Cert.ReferenceIdeal.Layers.lin64 (F := Ideal) h x1 x2 (ix2 r q) := by
  rw [Cert.Bridge.DenseAt.pay3_apply, Cert.Bridge.DenseAt.lin64_apply]
  refine congrArg (fun s : EReal => s + x2 (ix1 q)) (Finset.sum_congr rfl fun k _ => ?_)
  rw [hrow k]

variable (V : (c : Dev nD) → (b : Ref sig .tc) → Buf (Elt Ideal) ((c : Thread nD τ).loc b))

/-- Row y of the input's block at point t is row 5000·t + y of the input array. -/
private theorem rows3 (c : Dev nD) (t : Fin cfg3.N) (y : Fin 5000) (k : Fin 64) (r : Fin 100000)
    (hr : r.val = 5000 * t.val + y.val) :
    iblk3 (F := Ideal) V c 0 t (ix2 y k) = V c main_v69 (ix2 r k) := by
  obtain ⟨e0, e1, -⟩ := blockIndex3 t
  show V c main_v69 (((cfg3.win 0).blk t).view.emb (ix2 y k)) = V c main_v69 (ix2 r k)
  refine congrArg (V c main_v69) (funext fun a => Fin.ext ?_)
  match a with
  | ⟨0, _⟩ => show win3_0.index t (0 : Fin 2) * 5000 + 1 * y.val = r.val; omega
  | ⟨1, _⟩ => show win3_0.index t (1 : Fin 2) * 64 + 1 * k.val = k.val; omega

/-- The weights' block at every point is the whole array. -/
private theorem weights3 (c : Dev nD) (t : Fin cfg3.N) : iblk3 (F := Ideal) V c 1 t = V c main_arg8 := by
  obtain ⟨-, -, e0, e1, -⟩ := blockIndex3 t
  funext j
  show V c main_arg8 (((cfg3.win 1).blk t).view.emb j) = V c main_arg8 j
  refine congrArg (V c main_arg8) (funext fun a => Fin.ext ?_)
  match a with
  | ⟨0, _⟩ => show win3_1.index t (0 : Fin 2) * 64 + 1 * (j 0).val = (j 0).val; omega
  | ⟨1, _⟩ => show win3_1.index t (1 : Fin 2) * 64 + 1 * (j 1).val = (j 1).val; omega

/-- The bias's block at every point is the whole array. -/
private theorem bias3 (c : Dev nD) (t : Fin cfg3.N) : iblk3 (F := Ideal) V c 2 t = V c main_arg9 := by
  obtain ⟨-, -, -, -, e0, -⟩ := blockIndex3 t
  funext j
  show V c main_arg9 (((cfg3.win 2).blk t).view.emb j) = V c main_arg9 j
  refine congrArg (V c main_arg9) (funext fun a => Fin.ext ?_)
  match a with
  | ⟨0, _⟩ => show win3_2.index t (0 : Fin 1) * 64 + 1 * (j 0).val = (j 0).val; omega

/-- What point t writes back is block t of the layer of the arrays as the region finds them. -/
private theorem flushed3 (c : Dev nD) (t : Fin cfg3.N) :
    (dat3 (F := Ideal) V c).flushed 3 t = ((cfg3.win 3).blk t).view.read (Elt Ideal)
      (Cert.ReferenceIdeal.Layers.lin64 (F := Ideal) (V c main_v69) (V c main_arg8) (V c main_arg9)) := by
  show (cfg3.win 3).cut (grid3.coords t) ((dat3 V c).after 3 t) = _
  rw [after3_3]
  unfold out3_3
  rw [View.canon_unit_zero zeros2]
  simp only [View.ld_unit_zero (S := S5000x64) zeros2, View.ld_unit_zero (S := S64x64) zeros2, View.ld_unit_zero (S := S64) zeros1]
  rw [weights3, bias3]
  obtain ⟨-, -, -, -, -, e0, e1⟩ := blockIndex3 t
  have ht := points3 t
  funext j
  obtain ⟨y, q, rfl⟩ : ∃ (y : Fin 5000) (q : Fin 64), j = ix2 y q := ⟨j 0, j 1, eq_ix2 j⟩
  have hout : ((cfg3.win 3).blk t).view.emb (ix2 y q) = ix2 (⟨5000 * t.val + y.val, by omega⟩ : Fin 100000) q := by
    funext a; apply Fin.ext
    match a with
    | ⟨0, _⟩ => show win3_3.index t (0 : Fin 2) * 5000 + 1 * y.val = 5000 * t.val + y.val; omega
    | ⟨1, _⟩ => show win3_3.index t (1 : Fin 2) * 64 + 1 * q.val = q.val; omega
  show k3_pay1 (F := Ideal) (iblk3 V c 0 t) (V c main_arg8) (V c main_arg9) (ix2 y q)
    = Cert.ReferenceIdeal.Layers.lin64 (F := Ideal) (V c main_v69) (V c main_arg8) (V c main_arg9) (((cfg3.win 3).blk t).view.emb (ix2 y q))
  rw [hout]
  exact entry3 _ _ _ _ y _ q fun k => rows3 V c t y k _ rfl

/-- An index of the array is in point t's block iff each coordinate is in the block's range on its axis. -/
private theorem memBlock3 (t : Fin cfg3.N) (i : S100000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v70).slice (win3_3.rect t)).set ↔ _
  rw [View.set_slice_whole, Rect.mem_set_unit]
  exact Iff.rfl

/-- The twenty blocks of 5000 rows tile the 100000 rows: row r is in the block of point r / 5000. -/
private theorem cover3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hlt : (i 0).val / 5000 < cfg3.N := by rw [show cfg3.N = 20 from N_3]; omega
  obtain ⟨-, -, -, -, -, e0, e1⟩ := blockIndex3 ⟨(i 0).val / 5000, hlt⟩
  refine ⟨⟨(i 0).val / 5000, hlt⟩, flush3_3 _, ?_⟩
  rw [memBlock3]
  intro a
  match a with
  | ⟨0, _⟩ =>
    show win3_3.index ⟨(i 0).val / 5000, hlt⟩ (0 : Fin 2) * 5000 ≤ (i 0).val
      ∧ (i 0).val < win3_3.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win3_3.index ⟨(i 0).val / 5000, hlt⟩ (1 : Fin 2) * 64 ≤ (i 1).val
      ∧ (i 1).val < win3_3.index ⟨(i 0).val / 5000, hlt⟩ (1 : Fin 2) * 64 + 64
    omega

/-- The last pallas_call's output array is the final linear map of the arrays as the region finds them: every point
    writes back its block of that map, and the blocks cover the array. -/
theorem region3_arr (c : Dev nD) :
    (dat3 (F := Ideal) V c).arrAt 3 cfg3.N
      = Cert.ReferenceIdeal.Layers.lin64 (F := Ideal) (V c main_v69) (V c main_arg8) (V c main_arg9) :=
  (dat3 (F := Ideal) V c).arrAt_eq_of_cover 3 _ (fun t _ => flushed3 V c t) cover3

end Cert.KernelIdeal.Regions

end
-- ==== Proof.KValue.lean ====
/-
  What the four pallas_calls and the host operations between them leave in the result array, as one function of the
  argument arrays: the three-layer graph convolution with its final linear map.

  The run's buffer contents are followed boundary by boundary. The first stretch of host operations computes the edge
  sources, destinations and weights from the edge list; no later operation or pallas_call writes those three arrays, so
  every later stretch finds them unchanged. Each pallas_call's output array is the linear layer of the arrays it finds
  (rectified first in the second and third); each later stretch of host operations is the aggregation of the
  pallas_call's output before it.
-/
import proofs.«139529_j51908974739547_1_alg».proof.Proof.Gen.KernelIdeal.Frame
import proofs.«139529_j51908974739547_1_alg».proof.Proof.Layers
import proofs.«139529_j51908974739547_1_alg».proof.Proof.RefValue
import proofs.«139529_j51908974739547_1_alg».proof.Proof.Region0
import proofs.«139529_j51908974739547_1_alg».proof.Proof.Region1
import proofs.«139529_j51908974739547_1_alg».proof.Proof.Region2
import proofs.«139529_j51908974739547_1_alg».proof.Proof.Region3
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- A stretch of host operations leaves a buffer that none of them writes as it found it. -/
macro "host_keeps " ops:ident b:term:max : tactic => `(tactic|
  exact StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The edge arrays

The first stretch of host operations computes the edge sources, the edge destinations and the edge weights from the
edge list by the operations the host program itself uses, so at the first boundary the three arrays are the host
program's three stages of the edge list's launch contents. -/

/-- The edge sources at the first boundary: the edge list's first row followed by one self loop per node. -/
theorem W1_v5 (c : Dev nD) :
    W1 (F := Ideal) m ρ c (Proc.devRef .tc main_v5)
      = Cert.ReferenceIdeal.Read.val_main_v5 (F := Ideal) (m ((c : Thread nD τ).loc main_arg1)) := by
  show StableHlo.after hostOps0 _ (Proc.devRef .tc main_v5) = _
  after_results
  rfl

/-- The edge destinations at the first boundary: the edge list's second row followed by one self loop per node. -/
theorem W1_v6 (c : Dev nD) :
    W1 (F := Ideal) m ρ c (Proc.devRef .tc main_v6)
      = Cert.ReferenceIdeal.Read.val_main_v6 (F := Ideal) (m ((c : Thread nD τ).loc main_arg1)) := by
  show StableHlo.after hostOps0 _ (Proc.devRef .tc main_v6) = _
  after_results
  rfl

/-- The edge weights at the first boundary: the inverse square root of the degree at the source times that at the destination. -/
theorem W1_v27 (c : Dev nD) :
    W1 (F := Ideal) m ρ c (Proc.devRef .tc main_v27)
      = Cert.ReferenceIdeal.Read.val_main_v32 (F := Ideal) (m ((c : Thread nD τ).loc main_arg1)) := by
  show StableHlo.after hostOps0 _ (Proc.devRef .tc main_v27) = _
  after_results_simp
  rfl

/-! No pallas_call has one of the three arrays as a window and no later host operation writes one, so every later
boundary finds them as the first boundary left them. -/

theorem W2_v5 (c : Dev nD) :
    W2 (F := Ideal) m ρ c (Proc.devRef .tc main_v5)
      = Cert.ReferenceIdeal.Read.val_main_v5 (F := Ideal) (m ((c : Thread nD τ).loc main_arg1)) :=
  (W2_of_ne m ρ c main_v5 (by decide)).trans (W1_v5 m ρ c)

theorem W4_v5 (c : Dev nD) :
    W4 (F := Ideal) m ρ c (Proc.devRef .tc main_v5)
      = Cert.ReferenceIdeal.Read.val_main_v5 (F := Ideal) (m ((c : Thread nD τ).loc main_arg1)) :=
  calc W4 (F := Ideal) m ρ c (Proc.devRef .tc main_v5)
    _ = W3 m ρ c (Proc.devRef .tc main_v5) := W4_of_ne m ρ c main_v5 (by decide)
    _ = W2 m ρ c (Proc.devRef .tc main_v5) := by host_keeps hostOps1 main_v5
    _ = _ := W2_v5 m ρ c

theorem W6_v5 (c : Dev nD) :
    W6 (F := Ideal) m ρ c (Proc.devRef .tc main_v5)
      = Cert.ReferenceIdeal.Read.val_main_v5 (F := Ideal) (m ((c : Thread nD τ).loc main_arg1)) :=
  calc W6 (F := Ideal) m ρ c (Proc.devRef .tc main_v5)
    _ = W5 m ρ c (Proc.devRef .tc main_v5) := W6_of_ne m ρ c main_v5 (by decide)
    _ = W4 m ρ c (Proc.devRef .tc main_v5) := by host_keeps hostOps2 main_v5
    _ = _ := W4_v5 m ρ c

theorem W2_v6 (c : Dev nD) :
    W2 (F := Ideal) m ρ c (Proc.devRef .tc main_v6)
      = Cert.ReferenceIdeal.Read.val_main_v6 (F := Ideal) (m ((c : Thread nD τ).loc main_arg1)) :=
  (W2_of_ne m ρ c main_v6 (by decide)).trans (W1_v6 m ρ c)

theorem W4_v6 (c : Dev nD) :
    W4 (F := Ideal) m ρ c (Proc.devRef .tc main_v6)
      = Cert.ReferenceIdeal.Read.val_main_v6 (F := Ideal) (m ((c : Thread nD τ).loc main_arg1)) :=
  calc W4 (F := Ideal) m ρ c (Proc.devRef .tc main_v6)
    _ = W3 m ρ c (Proc.devRef .tc main_v6) := W4_of_ne m ρ c main_v6 (by decide)
    _ = W2 m ρ c (Proc.devRef .tc main_v6) := by host_keeps hostOps1 main_v6
    _ = _ := W2_v6 m ρ c

theorem W6_v6 (c : Dev nD) :
    W6 (F := Ideal) m ρ c (Proc.devRef .tc main_v6)
      = Cert.ReferenceIdeal.Read.val_main_v6 (F := Ideal) (m ((c : Thread nD τ).loc main_arg1)) :=
  calc W6 (F := Ideal) m ρ c (Proc.devRef .tc main_v6)
    _ = W5 m ρ c (Proc.devRef .tc main_v6) := W6_of_ne m ρ c main_v6 (by decide)
    _ = W4 m ρ c (Proc.devRef .tc main_v6) := by host_keeps hostOps2 main_v6
    _ = _ := W4_v6 m ρ c

theorem W2_v27 (c : Dev nD) :
    W2 (F := Ideal) m ρ c (Proc.devRef .tc main_v27)
      = Cert.ReferenceIdeal.Read.val_main_v32 (F := Ideal) (m ((c : Thread nD τ).loc main_arg1)) :=
  (W2_of_ne m ρ c main_v27 (by decide)).trans (W1_v27 m ρ c)

theorem W4_v27 (c : Dev nD) :
    W4 (F := Ideal) m ρ c (Proc.devRef .tc main_v27)
      = Cert.ReferenceIdeal.Read.val_main_v32 (F := Ideal) (m ((c : Thread nD τ).loc main_arg1)) :=
  calc W4 (F := Ideal) m ρ c (Proc.devRef .tc main_v27)
    _ = W3 m ρ c (Proc.devRef .tc main_v27) := W4_of_ne m ρ c main_v27 (by decide)
    _ = W2 m ρ c (Proc.devRef .tc main_v27) := by host_keeps hostOps1 main_v27
    _ = _ := W2_v27 m ρ c

theorem W6_v27 (c : Dev nD) :
    W6 (F := Ideal) m ρ c (Proc.devRef .tc main_v27)
      = Cert.ReferenceIdeal.Read.val_main_v32 (F := Ideal) (m ((c : Thread nD τ).loc main_arg1)) :=
  calc W6 (F := Ideal) m ρ c (Proc.devRef .tc main_v27)
    _ = W5 m ρ c (Proc.devRef .tc main_v27) := W6_of_ne m ρ c main_v27 (by decide)
    _ = W4 m ρ c (Proc.devRef .tc main_v27) := by host_keeps hostOps2 main_v27
    _ = _ := W4_v27 m ρ c

/-! ## The arguments

Each pallas_call finds its weight and bias arguments (and the first its node features) as launched: no host operation
writes an argument and a pallas_call only reads it. -/

theorem W1_arg0 (c : Dev nD) :
    W1 (F := Ideal) m ρ c (Proc.devRef .tc main_arg0) = m ((c : Thread nD τ).loc main_arg0) :=
  calc W1 (F := Ideal) m ρ c (Proc.devRef .tc main_arg0)
    _ = W0 m ρ c (Proc.devRef .tc main_arg0) := by host_keeps hostOps0 main_arg0
    _ = m ((c : Thread nD τ).loc main_arg0) := rfl

theorem W1_arg2 (c : Dev nD) :
    W1 (F := Ideal) m ρ c (Proc.devRef .tc main_arg2) = m ((c : Thread nD τ).loc main_arg2) :=
  calc W1 (F := Ideal) m ρ c (Proc.devRef .tc main_arg2)
    _ = W0 m ρ c (Proc.devRef .tc main_arg2) := by host_keeps hostOps0 main_arg2
    _ = m ((c : Thread nD τ).loc main_arg2) := rfl

theorem W1_arg3 (c : Dev nD) :
    W1 (F := Ideal) m ρ c (Proc.devRef .tc main_arg3) = m ((c : Thread nD τ).loc main_arg3) :=
  calc W1 (F := Ideal) m ρ c (Proc.devRef .tc main_arg3)
    _ = W0 m ρ c (Proc.devRef .tc main_arg3) := by host_keeps hostOps0 main_arg3
    _ = m ((c : Thread nD τ).loc main_arg3) := rfl

theorem W3_arg4 (c : Dev nD) :
    W3 (F := Ideal) m ρ c (Proc.devRef .tc main_arg4) = m ((c : Thread nD τ).loc main_arg4) :=
  calc W3 (F := Ideal) m ρ c (Proc.devRef .tc main_arg4)
    _ = W2 m ρ c (Proc.devRef .tc main_arg4) := by host_keeps hostOps1 main_arg4
    _ = W1 m ρ c (Proc.devRef .tc main_arg4) := W2_of_ne m ρ c main_arg4 (by decide)
    _ = W0 m ρ c (Proc.devRef .tc main_arg4) := by host_keeps hostOps0 main_arg4
    _ = m ((c : Thread nD τ).loc main_arg4) := rfl

theorem W3_arg5 (c : Dev nD) :
    W3 (F := Ideal) m ρ c (Proc.devRef .tc main_arg5) = m ((c : Thread nD τ).loc main_arg5) :=
  calc W3 (F := Ideal) m ρ c (Proc.devRef .tc main_arg5)
    _ = W2 m ρ c (Proc.devRef .tc main_arg5) := by host_keeps hostOps1 main_arg5
    _ = W1 m ρ c (Proc.devRef .tc main_arg5) := W2_of_ne m ρ c main_arg5 (by decide)
    _ = W0 m ρ c (Proc.devRef .tc main_arg5) := by host_keeps hostOps0 main_arg5
    _ = m ((c : Thread nD τ).loc main_arg5) := rfl

theorem W5_arg6 (c : Dev nD) :
    W5 (F := Ideal) m ρ c (Proc.devRef .tc main_arg6) = m ((c : Thread nD τ).loc main_arg6) :=
  calc W5 (F := Ideal) m ρ c (Proc.devRef .tc main_arg6)
    _ = W6 m ρ c (Proc.devRef .tc main_arg6) :=
        ((W6_arr m ρ c 1).trans (((dat2 (V5 m ρ) c).arrAt_in 1 rfl _).trans (A_eq2 (V5 m ρ) c 1))).symm
    _ = W7 m ρ c (Proc.devRef .tc main_arg6) := Eq.symm (by host_keeps hostOps3 main_arg6)
    _ = W8 m ρ c (Proc.devRef .tc main_arg6) := (W8_of_ne m ρ c main_arg6 (by decide)).symm
    _ = m ((c : Thread nD τ).loc main_arg6) := W8_main_arg6 m ρ c

theorem W5_arg7 (c : Dev nD) :
    W5 (F := Ideal) m ρ c (Proc.devRef .tc main_arg7) = m ((c : Thread nD τ).loc main_arg7) :=
  calc W5 (F := Ideal) m ρ c (Proc.devRef .tc main_arg7)
    _ = W6 m ρ c (Proc.devRef .tc main_arg7) :=
        ((W6_arr m ρ c 2).trans (((dat2 (V5 m ρ) c).arrAt_in 2 rfl _).trans (A_eq2 (V5 m ρ) c 2))).symm
    _ = W7 m ρ c (Proc.devRef .tc main_arg7) := Eq.symm (by host_keeps hostOps3 main_arg7)
    _ = W8 m ρ c (Proc.devRef .tc main_arg7) := (W8_of_ne m ρ c main_arg7 (by decide)).symm
    _ = m ((c : Thread nD τ).loc main_arg7) := W8_main_arg7 m ρ c

theorem W7_arg8 (c : Dev nD) :
    W7 (F := Ideal) m ρ c (Proc.devRef .tc main_arg8) = m ((c : Thread nD τ).loc main_arg8) :=
  calc W7 (F := Ideal) m ρ c (Proc.devRef .tc main_arg8)
    _ = W8 m ρ c (Proc.devRef .tc main_arg8) :=
        ((W8_arr m ρ c 1).trans (((dat3 (V7 m ρ) c).arrAt_in 1 rfl _).trans (A_eq3 (V7 m ρ) c 1))).symm
    _ = m ((c : Thread nD τ).loc main_arg8) := W8_main_arg8 m ρ c

theorem W7_arg9 (c : Dev nD) :
    W7 (F := Ideal) m ρ c (Proc.devRef .tc main_arg9) = m ((c : Thread nD τ).loc main_arg9) :=
  calc W7 (F := Ideal) m ρ c (Proc.devRef .tc main_arg9)
    _ = W8 m ρ c (Proc.devRef .tc main_arg9) :=
        ((W8_arr m ρ c 2).trans (((dat3 (V7 m ρ) c).arrAt_in 2 rfl _).trans (A_eq3 (V7 m ρ) c 2))).symm
    _ = m ((c : Thread nD τ).loc main_arg9) := W8_main_arg9 m ρ c

/-! ## The four pallas_calls

Each pallas_call's output array is the linear layer of the arrays it finds at its entry. -/

/-- The first pallas_call leaves the linear layer of the node features. -/
theorem W2_v28 (c : Dev nD) :
    W2 (F := Ideal) m ρ c (Proc.devRef .tc main_v28)
      = Cert.ReferenceIdeal.Layers.lin128 (F := Ideal) (m ((c : Thread nD τ).loc main_arg0)) (m ((c : Thread nD τ).loc main_arg2)) (m ((c : Thread nD τ).loc main_arg3)) := by
  refine (W2_arr m ρ c 3).trans ((Regions.region0_arr (V1 m ρ) c).trans ?_)
  show Cert.ReferenceIdeal.Layers.lin128 (F := Ideal) (W1 m ρ c (Proc.devRef .tc main_arg0)) (W1 m ρ c (Proc.devRef .tc main_arg2)) (W1 m ρ c (Proc.devRef .tc main_arg3)) = _
  rw [W1_arg0 m ρ c, W1_arg2 m ρ c, W1_arg3 m ρ c]

/-- The second leaves the linear layer of the rectified first aggregation. -/
theorem W4_v42 (c : Dev nD) :
    W4 (F := Ideal) m ρ c (Proc.devRef .tc main_v42)
      = Cert.ReferenceIdeal.Layers.lin128 (F := Ideal) (Cert.ReferenceIdeal.Layers.relu128 (W3 m ρ c (Proc.devRef .tc main_v41))) (m ((c : Thread nD τ).loc main_arg4)) (m ((c : Thread nD τ).loc main_arg5)) := by
  refine (W4_arr m ρ c 3).trans ((Regions.region1_arr (V3 m ρ) c).trans ?_)
  show Cert.ReferenceIdeal.Layers.lin128 (F := Ideal) (Cert.ReferenceIdeal.Layers.relu128 (W3 m ρ c (Proc.devRef .tc main_v41))) (W3 m ρ c (Proc.devRef .tc main_arg4)) (W3 m ρ c (Proc.devRef .tc main_arg5)) = _
  rw [W3_arg4 m ρ c, W3_arg5 m ρ c]

/-- The third leaves the narrowing linear layer of the rectified second aggregation. -/
theorem W6_v56 (c : Dev nD) :
    W6 (F := Ideal) m ρ c (Proc.devRef .tc main_v56)
      = Cert.ReferenceIdeal.Layers.lin128x64 (F := Ideal) (Cert.ReferenceIdeal.Layers.relu128 (W5 m ρ c (Proc.devRef .tc main_v55))) (m ((c : Thread nD τ).loc main_arg6)) (m ((c : Thread nD τ).loc main_arg7)) := by
  refine (W6_arr m ρ c 3).trans ((Regions.region2_arr (V5 m ρ) c).trans ?_)
  show Cert.ReferenceIdeal.Layers.lin128x64 (F := Ideal) (Cert.ReferenceIdeal.Layers.relu128 (W5 m ρ c (Proc.devRef .tc main_v55))) (W5 m ρ c (Proc.devRef .tc main_arg6)) (W5 m ρ c (Proc.devRef .tc main_arg7)) = _
  rw [W5_arg6 m ρ c, W5_arg7 m ρ c]

/-- The fourth leaves the final linear map of the third aggregation. -/
theorem W8_v70 (c : Dev nD) :
    W8 (F := Ideal) m ρ c (Proc.devRef .tc main_v70)
      = Cert.ReferenceIdeal.Layers.lin64 (F := Ideal) (W7 m ρ c (Proc.devRef .tc main_v69)) (m ((c : Thread nD τ).loc main_arg8)) (m ((c : Thread nD τ).loc main_arg9)) := by
  refine (W8_arr m ρ c 3).trans ((Regions.region3_arr (V7 m ρ) c).trans ?_)
  show Cert.ReferenceIdeal.Layers.lin64 (F := Ideal) (W7 m ρ c (Proc.devRef .tc main_v69)) (W7 m ρ c (Proc.devRef .tc main_arg8)) (W7 m ρ c (Proc.devRef .tc main_arg9)) = _
  rw [W7_arg8 m ρ c, W7_arg9 m ρ c]

/-! ## The three aggregations

Each later stretch of host operations gathers the rows of the pallas_call's output at the (wrapped) edge sources, scales
them by the edge weights and adds them into zeros at the edge destinations: the aggregation, in the host's spelling. -/

theorem W3_v41 (c : Dev nD) :
    W3 (F := Ideal) m ρ c (Proc.devRef .tc main_v41)
      = Cert.ReferenceIdeal.Layers.agg128 (F := Ideal) (W2 m ρ c (Proc.devRef .tc main_v5)) (W2 m ρ c (Proc.devRef .tc main_v6))
          (W2 m ρ c (Proc.devRef .tc main_v27)) (W2 m ρ c (Proc.devRef .tc main_v28)) := by
  show StableHlo.after hostOps1 _ (Proc.devRef .tc main_v41) = _
  generalize W2 m ρ c = V
  after_results_simp
  rfl

theorem W5_v55 (c : Dev nD) :
    W5 (F := Ideal) m ρ c (Proc.devRef .tc main_v55)
      = Cert.ReferenceIdeal.Layers.agg128 (F := Ideal) (W4 m ρ c (Proc.devRef .tc main_v5)) (W4 m ρ c (Proc.devRef .tc main_v6))
          (W4 m ρ c (Proc.devRef .tc main_v27)) (W4 m ρ c (Proc.devRef .tc main_v42)) := by
  show StableHlo.after hostOps2 _ (Proc.devRef .tc main_v55) = _
  generalize W4 m ρ c = V
  after_results_simp
  rfl

theorem W7_v69 (c : Dev nD) :
    W7 (F := Ideal) m ρ c (Proc.devRef .tc main_v69)
      = Cert.ReferenceIdeal.Layers.agg64 (F := Ideal) (W6 m ρ c (Proc.devRef .tc main_v5)) (W6 m ρ c (Proc.devRef .tc main_v6))
          (W6 m ρ c (Proc.devRef .tc main_v27)) (W6 m ρ c (Proc.devRef .tc main_v56)) := by
  show StableHlo.after hostOps3 _ (Proc.devRef .tc main_v69) = _
  generalize W6 m ρ c = V
  after_results_simp
  rfl

/-! ## The network -/

/-- The result array at the last boundary is the network of the launch contents of the arguments. -/
theorem kernel_value (c : Dev nD) :
    W8 (F := Ideal) m ρ c (Proc.devRef .tc main_v70)
      = Cert.ReferenceIdeal.RefValue.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Cert.ReferenceIdeal.RefValue.net
  rw [W8_v70 m ρ c, W7_v69 m ρ c, W6_v56 m ρ c, W5_v55 m ρ c, W4_v42 m ρ c, W3_v41 m ρ c, W2_v28 m ρ c,
    W6_v5 m ρ c, W6_v6 m ρ c, W6_v27 m ρ c, W4_v5 m ρ c, W4_v6 m ρ c, W4_v27 m ρ c,
    W2_v5 m ρ c, W2_v6 m ρ c, W2_v27 m ρ c]

end Cert.KernelIdeal.KValue

end
-- ==== Proof.lean ====
/-
  The kernel and its reference compute the same three-layer graph convolution followed by a linear map, on the
  extended reals, entry by entry — and neither side needs its inputs finite for that.

  Both programs build, from the edge list, the same three arrays: the source and the destination of every edge (the
  listed edges, then one self loop per node) and the edge weight deg(src)^(-1/2) · deg(dst)^(-1/2). A layer maps node
  features h to the aggregation, over the edges into each destination, of weight · (h · Wᵀ + b)[source]; a rectifier
  sits between consecutive layers, and a last linear map follows the third aggregation. The reference spells every
  linear map as one whole-matrix product on the host. The kernel computes it in a pallas_call, 5000 rows at a time: the
  block's rows (rectified inside the block where the reference rectifies the whole array before) against the transposed
  weights into a zero accumulator, plus the bias row; row p of a product depends on row p of its input alone, so the
  20 blocks together are the whole-matrix product. Everything else — the gathers, the scaling, the accumulating
  scatters, the power — is the same host operation applied to equal arrays on the two sides, and is never opened.
  A change of float format is the identity on the extended reals, and the ideal pass rewrote nothing, so the
  idealization claim is trivial.

  The pieces: the reference's result is the composed network (RefValue, by unfolding its stages); each pallas_call's
  output array is the linear layer of the arrays it finds (Region0 … Region3, over the entry readings of DenseAt); the
  buffer contents followed through the run give the kernel's result as the same network (KValue); the run itself, with
  the result buffer kept in its post, is KRun.
-/
import proofs.«139529_j51908974739547_1_alg».proof.Defs
import proofs.«139529_j51908974739547_1_alg».proof.Proof.Gen.Kernel
import proofs.«139529_j51908974739547_1_alg».proof.Proof.Gen.Kernel.Frame
import proofs.«139529_j51908974739547_1_alg».proof.Proof.Gen.KernelIdeal
import proofs.«139529_j51908974739547_1_alg».proof.Proof.Gen.KernelIdeal.Frame
import proofs.«139529_j51908974739547_1_alg».proof.Proof.Gen.ReferenceIdeal
import proofs.«139529_j51908974739547_1_alg».proof.Proof.Gen.ReferenceIdeal.Run
import proofs.«139529_j51908974739547_1_alg».proof.Proof.Gen.ReferenceIdeal.Read
import proofs.«139529_j51908974739547_1_alg».proof.Proof.Gen.Pre_finite_inputs
import proofs.«139529_j51908974739547_1_alg».proof.Proof.KRun
import proofs.«139529_j51908974739547_1_alg».proof.Proof.KValue
import proofs.«139529_j51908974739547_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end, its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the network of the argument arrays in their result buffer. -/
theorem algebraic : Cert.algebraic_KernelIdeal_ReferenceIdeal := by
  intro m ρ m' ρ' _ hagree
  refine ⟨fun c => Cert.ReferenceIdeal.RefValue.net (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KValue.kernel_value m ρ c), (h c).2⟩)
      (Cert.KernelIdeal.KRun.run_out (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9⟩ := hagree c
    rw [(h c).1, Cert.ReferenceIdeal.Read.val_main_v136_eq, Cert.ReferenceIdeal.RefValue.result_eq,
      e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
